-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S2x2048x4096 .f32) (main_arg1 : IVec S11008x4096 32) (main_arg2 : FVec F S11008x1 .f32) (main_arg3 : FVec F S11008x1 .f32) (main_arg4 : FVec F S11008 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S11008x1 .f32 := Host.absf main_arg3
  let main_cst_2 : FVec F S_ .f32 := constant S_ .f32 0x7F800000#32
  let main_v10 : FVec F S11008x1 .f32 := broadcastInDim S11008x1 ![] bcast_S_S11008x1 main_cst_2
  let main_v11 : IVec S11008x1 1 := cmpf .olt main_v9 main_v10
  let main_c_3 : IVec S_ 1 := constantI S_ 1 1#1
  let main_v12 : IVec S_ 1 := (fun x v => Host.reduce IntOp.andi x v reducesTo_S11008x1_S_d0_1 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S2x2048x4096 : Shape := ⟨3, ![2, 2048, 4096]⟩
abbrev S11008x4096 : Shape := ⟨2, ![11008, 4096]⟩
abbrev S11008x1 : Shape := ⟨2, ![11008, 1]⟩
abbrev S11008 : Shape := ⟨1, ![11008]⟩
abbrev S4096x4096 : Shape := ⟨2, ![4096, 4096]⟩
abbrev S1x11008 : Shape := ⟨2, ![1, 11008]⟩
abbrev S4096x11008 : Shape := ⟨2, ![4096, 11008]⟩
abbrev S512x2048 : Shape := ⟨2, ![512, 2048]⟩
abbrev S256x2048 : Shape := ⟨2, ![256, 2048]⟩
abbrev S256x1 : Shape := ⟨2, ![256, 1]⟩
abbrev S1x256 : Shape := ⟨2, ![1, 256]⟩
abbrev S512x256 : Shape := ⟨2, ![512, 256]⟩
abbrev S2x2048x11008 : Shape := ⟨3, ![2, 2048, 11008]⟩

abbrev nBuf : Space → Nat
  | .hbm => 9
  | .vmem => 13
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .i32⟩
  | .hbm, ⟨2, _⟩ => ⟨S11008x1, .f32⟩
  | .hbm, ⟨3, _⟩ => ⟨S11008x1, .f32⟩
  | .hbm, ⟨4, _⟩ => ⟨S11008, .f32⟩
  | .hbm, ⟨5, _⟩ => ⟨S4096x4096, .f32⟩
  | .hbm, ⟨6, _⟩ => ⟨S1x11008, .f32⟩
  | .hbm, ⟨7, _⟩ => ⟨S4096x11008, .f32⟩
  | .hbm, ⟨8, _⟩ => ⟨S2x2048x11008, .f32⟩
  | .local _ .vmem, ⟨0, _⟩ => ⟨S512x2048, .f32⟩
  | .local _ .vmem, ⟨1, _⟩ => ⟨S512x2048, .f32⟩
  | .local _ .vmem, ⟨2, _⟩ => ⟨S256x2048, .i32⟩
  | .local _ .vmem, ⟨3, _⟩ => ⟨S256x2048, .i32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S1x256, .f32⟩
  | .local _ .vmem, ⟨9, _⟩ => ⟨S1x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 43, 2], ![false, false, false]⟩

def k0_cond2 (i : grid0.Coords) : BitVec 1 :=
  let arg2 : BitVec 32 := BitVec.ofNat 32 (i 2).val
  let c1_i32 : BitVec 32 := 1#32
  let v21 : BitVec 1 := Scalar.cmpi .eq arg2 c1_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S2x2048x4096_S4096x4096 : S2x2048x4096.ShapeCasts S4096x4096
  shapeCasts_S11008_S1x11008 : S11008.ShapeCasts S1x11008
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x2048_S256x2048_0_0 : ∀ a, (![0, 0] : Fin 2 → Nat) a + S256x2048.size a ≤ S256x2048.size a
  h_S256x2048 : 0 < S256x2048.numel
  inb_S256x1_S256x1_0_0 : ∀ a, (![0, 0] : Fin 2 → Nat) a + S256x1.size a ≤ S256x1.size a
  h_S256x1 : 0 < S256x1.numel
  broadcasts_S256x1_S256x2048 : S256x1.Broadcasts S256x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  shapeCasts_S4096x11008_S2x2048x11008 : S4096x11008.ShapeCasts S2x2048x11008
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x4096.size a
  hwx0_0 : ∀ i : grid0.Coords, EltTy.bits .f32 = 32 ∨ (Rect.block (s := S4096x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S11008x4096.size a
  hwx0_1 : ∀ i : grid0.Coords, EltTy.bits .i32 = 32 ∨ (Rect.block (s := S11008x4096) S256x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S11008x1.size a
  hwx0_2 : ∀ i : grid0.Coords, EltTy.bits .f32 = 32 ∨ (Rect.block (s := S11008x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S11008x1.size a
  hwx0_3 : ∀ i : grid0.Coords, EltTy.bits .f32 = 32 ∨ (Rect.block (s := S11008x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S4096x11008.size a
  hwx0_5 : ∀ i : grid0.Coords, EltTy.bits .f32 = 32 ∨ (Rect.block (s := S4096x11008) S512x256.size (cc0_transform_5 i) (hinb0_5 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S11008x1 : Shape := ⟨2, ![11008, 1]⟩
abbrev S11008 : Shape := ⟨1, ![11008]⟩
abbrev S2x2048x11008 : Shape := ⟨3, ![2, 2048, 11008]⟩
abbrev S1x1x11008 : Shape := ⟨3, ![1, 1, 11008]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .i32⟩
  | .hbm, ⟨2, _⟩ => ⟨S11008x1, .f32⟩
  | .hbm, ⟨3, _⟩ => ⟨S11008x1, .f32⟩
  | .hbm, ⟨4, _⟩ => ⟨S11008, .f32⟩
  | .hbm, ⟨5, _⟩ => ⟨S11008x4096, .f32⟩
  | .hbm, ⟨6, _⟩ => ⟨S11008x4096, .f32⟩
  | .hbm, ⟨7, _⟩ => ⟨S11008x4096, .f32⟩
  | .hbm, ⟨8, _⟩ => ⟨S11008x4096, .f32⟩
  | .hbm, ⟨9, _⟩ => ⟨S11008x4096, .f32⟩
  | .hbm, ⟨10, _⟩ => ⟨S2x2048x11008, .f32⟩
  | .hbm, ⟨11, _⟩ => ⟨S1x1x11008, .f32⟩
  | .hbm, ⟨12, _⟩ => ⟨S2x2048x11008, .f32⟩
  | .hbm, ⟨13, _⟩ => ⟨S2x2048x11008, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S2x2048x11008_0_1_2 : S1x1x11008.BroadcastsInDim S2x2048x11008 (![0, 1, 2] : Fin 3 → Fin S2x2048x11008.rank)
  dot_S2x2048x4096_S11008x4096_S2x2048x11008_2_1_01_0_n_n_wf : DotDims.WF S2x2048x4096 S11008x4096 S2x2048x11008 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf

class Facts : Prop extends Facts₀ where

variable [Facts]
-- ==== Proof.Spec.lean ====
/-
  The mathematics both programs compute, with no program in sight.

  A weight matrix is stored as integers `w[n,k]` with one offset and one scale per output row `n`; its real value is
  `W[n,k] = (w[n,k] + off[n]) * scale[n]`. The result is the linear map with bias,
      `y[b,s,n] = (∑ k, x[b,s,k] * W[n,k]) + bias[n]`,
  over the extended reals. Flattening the two leading axes of `x` and of `y` (row `2048 b + s`) gives the matrix form
  `Y[r,n] = (∑ k, X[r,k] * W[n,k]) + B[0,n]`.

  One program computes the contraction over `k` in one sum; the other splits `k` into its lower and upper halves and
  adds the two partial sums, in that order, onto a zero. Addition of extended reals is associative and commutative
  and `0` is neutral, so the two agree (`sum_halves`); no finiteness is used.
-/
import Idealize.ShloMosaic.PureOps.Ideal.Laws
import Idealize.ShloMosaic.Lib.ValueIdx
import Idealize.ShloMosaic.Lib.Pipeline.Value

noncomputable section

open scoped BigOperators

namespace Cert.Spec

open Idealize.ShloMosaic Idealize.ShloMosaic.ValueIdx

/-- One dequantized weight: the stored integer read signed, plus its row's offset, times its row's scale. -/
def deq (w : IVec ⟨2, ![11008, 4096]⟩ 32) (scale off : FVec Ideal ⟨2, ![11008, 1]⟩ .f32)
    (n : Fin 11008) (k : Fin 4096) : EReal :=
  (FloatOps.sitofp (F := Ideal) .f32 (w (ix2 n k)) + off (ix2 n (0 : Fin 1))) * scale (ix2 n (0 : Fin 1))

/-- The matrix form: row `r` of the flattened input against row `n` of the dequantized weights, plus the bias. -/
def G2 (X : FVec Ideal ⟨2, ![4096, 4096]⟩ .f32) (w : IVec ⟨2, ![11008, 4096]⟩ 32)
    (scale off : FVec Ideal ⟨2, ![11008, 1]⟩ .f32) (B : FVec Ideal ⟨2, ![1, 11008]⟩ .f32) :
    FVec Ideal ⟨2, ![4096, 11008]⟩ .f32 :=
  fun i =>
    let r : Fin 4096 := i 0
    let n : Fin 11008 := i 1
    (∑ k : Fin 4096, X (ix2 r k) * deq w scale off n k) + B (ix2 (0 : Fin 1) n)

/-- The result in its own coordinates (batch, position, output feature). -/
def G3 (x : FVec Ideal ⟨3, ![2, 2048, 4096]⟩ .f32) (w : IVec ⟨2, ![11008, 4096]⟩ 32)
    (scale off : FVec Ideal ⟨2, ![11008, 1]⟩ .f32) (bias : FVec Ideal ⟨1, ![11008]⟩ .f32) :
    FVec Ideal ⟨3, ![2, 2048, 11008]⟩ .f32 :=
  fun i =>
    let b : Fin 2 := i 0
    let s : Fin 2048 := i 1
    let n : Fin 11008 := i 2
    (∑ k : Fin 4096, x (ix3 b s k) * deq w scale off n k) + bias (ix1 n)

/-- A sum over 4096 terms is the sum of its lower 2048 and its upper 2048, added in that order onto zero. -/
theorem sum_halves (f : Fin 4096 → EReal) :
    (0 + ∑ k : Fin 2048, f ⟨k.val, by have := k.isLt; omega⟩) + ∑ k : Fin 2048, f ⟨2048 + k.val, by have := k.isLt; omega⟩
      = ∑ k : Fin 4096, f k := by
  rw [zero_add]
  exact (Fin.sum_univ_add (a := 2048) (b := 2048) f).symm

/-- Flattening the two leading axes of the input (row `2048 b + s`), viewing the bias as one row, and un-flattening the
    result's rows turns the matrix form into the result: each reshape keeps row-major positions. -/
theorem G3_of_G2 (x : FVec Ideal ⟨3, ![2, 2048, 4096]⟩ .f32) (w : IVec ⟨2, ![11008, 4096]⟩ 32)
    (scale off : FVec Ideal ⟨2, ![11008, 1]⟩ .f32) (bias : FVec Ideal ⟨1, ![11008]⟩ .f32)
    (h1 : (⟨3, ![2, 2048, 4096]⟩ : Shape).ShapeCasts ⟨2, ![4096, 4096]⟩)
    (h2 : (⟨1, ![11008]⟩ : Shape).ShapeCasts ⟨2, ![1, 11008]⟩)
    (h3 : (⟨2, ![4096, 11008]⟩ : Shape).ShapeCasts ⟨3, ![2, 2048, 11008]⟩) :
    shapeCast ⟨3, ![2, 2048, 11008]⟩
        (G2 (shapeCast ⟨2, ![4096, 4096]⟩ x h1) w scale off (shapeCast ⟨2, ![1, 11008]⟩ bias h2)) h3
      = G3 x w scale off bias := by
  funext i
  obtain ⟨b, s, n, rfl⟩ : ∃ (b : Fin 2) (s : Fin 2048) (n : Fin 11008), i = ix3 b s n := ⟨i 0, i 1, i 2, eq_ix3 i⟩
  have hr : 2048 * b.val + s.val < 4096 := by have := b.isLt; have := s.isLt; omega
  rw [shapeCast_apply _ h3 (ix3 b s n) (ix2 (⟨2048 * b.val + s.val, hr⟩ : Fin 4096) n)
    (by rw [Shape.rowMajor_val_two, Shape.rowMajor_val_three]
        show (2048 * b.val + s.val) * 11008 + n.val = (b.val * 2048 + s.val) * 11008 + n.val
        omega)]
  show (∑ k : Fin 4096, shapeCast ⟨2, ![4096, 4096]⟩ x h1 (ix2 (⟨2048 * b.val + s.val, hr⟩ : Fin 4096) k) * deq w scale off n k)
      + shapeCast ⟨2, ![1, 11008]⟩ bias h2 (ix2 (0 : Fin 1) n)
    = (∑ k : Fin 4096, x (ix3 b s k) * deq w scale off n k) + bias (ix1 n)
  rw [shapeCast_apply bias h2 (ix2 (0 : Fin 1) n) (ix1 n)
    (by rw [Shape.rowMajor_val_one, Shape.rowMajor_val_two]
        show n.val = 0 * 11008 + n.val
        omega)]
  refine congrArg (· + bias (ix1 n)) (Finset.sum_congr rfl fun k _ => ?_)
  rw [shapeCast_apply x h1 (ix2 (⟨2048 * b.val + s.val, hr⟩ : Fin 4096) k) (ix3 b s k)
    (by rw [Shape.rowMajor_val_two, Shape.rowMajor_val_three]
        show (b.val * 2048 + s.val) * 4096 + k.val = (2048 * b.val + s.val) * 4096 + k.val
        omega)]

end Cert.Spec

end
-- ==== Proof.RefSide.lean ====
/-
  The reference program computes the specification.

  Its operations, read one at a time at an index: the weights converted from integers, the per-row offset broadcast
  along `k` and added, the per-row scale broadcast along `k` and multiplied, the contraction of the input's last axis
  against the weights' last axis, and the bias broadcast over batch and position and added. Element `(b, s, n)` is
  therefore `(∑ k, x[b,s,k] * ((w[n,k] + off[n]) * scale[n])) + bias[n]`: the specification, term for term.
-/
import proofs.«145541_j47356309405799_1_alg».proof.Proof.Gen.ReferenceIdeal.Read
import proofs.«145541_j47356309405799_1_alg».proof.Proof.Spec

noncomputable section

open scoped BigOperators

namespace Cert.RefSide

open Cert.ReferenceIdeal Cert.ReferenceIdeal.Read Idealize.ShloMosaic Idealize.ShloMosaic.ValueIdx Cert.Spec

/-- The input element the contraction reads at output `(b, s, n)` and step `k` is `x[b, s, k]`. -/
theorem lidx_eq (b : Fin 2) (s : Fin 2048) (n : Fin 11008) (k : Fin 4096) :
    lidx_main_v5 (ix3 b s n) k = ix3 b s k :=
  funext fun a => Fin.ext (by match a with | ⟨0, _⟩ => rfl | ⟨1, _⟩ => rfl | ⟨2, _⟩ => rfl)

/-- The weight element it reads is `W[n, k]`. -/
theorem ridx_eq (b : Fin 2) (s : Fin 2048) (n : Fin 11008) (k : Fin 4096) :
    ridx_main_v5 (ix3 b s n) k = ix2 n k :=
  funext fun a => Fin.ext (by match a with | ⟨0, _⟩ => rfl | ⟨1, _⟩ => rfl)

/-- The offset broadcast along `k` reads row `n`'s one offset. -/
theorem idx_off_eq (n : Fin 11008) (k : Fin 4096) : idx_main_v1 (ix2 n k) = ix2 n (0 : Fin 1) :=
  funext fun a => Fin.ext (by match a with | ⟨0, _⟩ => rfl | ⟨1, _⟩ => rfl)

/-- The scale broadcast along `k` reads row `n`'s one scale. -/
theorem idx_scale_eq (n : Fin 11008) (k : Fin 4096) : idx_main_v3 (ix2 n k) = ix2 n (0 : Fin 1) :=
  funext fun a => Fin.ext (by match a with | ⟨0, _⟩ => rfl | ⟨1, _⟩ => rfl)

/-- The bias broadcast over batch and position reads `bias[n]`. -/
theorem idx_bias_eq (b : Fin 2) (s : Fin 2048) (n : Fin 11008) :
    idx_main_v6 (idx_main_v7 (ix3 b s n)) = ix1 n :=
  funext fun a => Fin.ext (by match a with | ⟨0, _⟩ => rfl)

/-- The reference's last stage is the specification. -/
theorem ref_is_spec (x0 : (⟨S2x2048x4096, .f32⟩ : BufTy).Contents (Elt Ideal))
    (x1 : (⟨S11008x4096, .i32⟩ : BufTy).Contents (Elt Ideal))
    (x2 x3 : (⟨S11008x1, .f32⟩ : BufTy).Contents (Elt Ideal))
    (x4 : (⟨S11008, .f32⟩ : BufTy).Contents (Elt Ideal)) :
    val_main_v8 (F := Ideal) x0 x1 x2 x3 x4 = G3 x0 x1 x2 x3 x4 := by
  funext i
  obtain ⟨b, s, n, rfl⟩ : ∃ (b : Fin 2) (s : Fin 2048) (n : Fin 11008), i = ix3 b s n := ⟨i 0, i 1, i 2, eq_ix3 i⟩
  rw [val_main_v8_apply, val_main_v5_apply, val_main_v7_apply, val_main_v6_apply, idx_bias_eq]
  show (∑ k : Fin 4096, x0 (lidx_main_v5 (ix3 b s n) k) * val_main_v4 (F := Ideal) x1 x2 x3 (ridx_main_v5 (ix3 b s n) k))
      + x4 (ix1 n)
    = (∑ k : Fin 4096, x0 (ix3 b s k) * deq x1 x2 x3 n k) + x4 (ix1 n)
  refine congrArg (· + x4 (ix1 n)) (Finset.sum_congr rfl fun k _ => ?_)
  rw [lidx_eq, ridx_eq, val_main_v4_apply, val_main_v2_apply, val_main_v0_apply, val_main_v1_apply, val_main_v3_apply,
    idx_off_eq, idx_scale_eq]
  rfl

end Cert.RefSide

end
-- ==== Proof.Pieces.lean ====
/-
  What one run of the kernel body leaves behind, as values.

  The body keeps a running block `acc` (512 × 256) across the two steps of the contraction axis.
  At the first step it overwrites `acc` with zeros, reads it back, and stores `acc + P`, where `P` is this step's
  partial product block (`k0_pay2`: the weights dequantized, then the 512 × 2048 input block against the 256 × 2048
  weight block). At the second step it stores `acc + P` over what the first step left, reads that back, and stores
  it plus the bias row into the output block (`k0_pay3`).
  Every load and store is of a whole buffer, so a load reads the contents and the last store leaves its value.
-/
import proofs.«145541_j47356309405799_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The whole-buffer rectangle starts at the origin. -/
theorem hz : (![0, 0] : Fin 2 → Nat) = fun _ => 0 := funext fun a => by fin_cases a <;> rfl

/-- First step: the running block ends at the zero block plus this step's partial product. -/
theorem scratch_first (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x1 .f32) (harg5 : arg5.IsWhole) (arg6 : Memref sig .tc .vmem S256x1 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S512x256 .f32) (harg9 : arg9.IsWhole) (hc0 : cond0_0 i) (hc1 : ¬cond0_1 i)
    (x0 : Vec F S512x2048 .f32) (x1 : Vec F S256x2048 .i32) (x2 : Vec F S256x1 .f32) (x3 : Vec F S256x1 .f32) (x4 : Vec F S1x256 .f32) :
    sout0_A_0 c i arg3 harg3 arg4 harg4 arg5 harg5 arg6 harg6 arg7 harg7 arg8 harg8 arg9 harg9 hc0 hc1 x0 x1 x2 x3 x4 = k0_pay2 x1 x3 x2 x0 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x256) hz, View.readCov_unit_zero (S := S512x256) _ hz]
  simp only [View.readAt_eq_ld, harg3.read_unread, harg4.read_unread, harg5.read_unread, harg6.read_unread, harg7.read_unread,
    View.ld_unit_zero (S := S256x2048) hz, View.ld_unit_zero (S := S256x1) hz, View.ld_unit_zero (S := S512x2048) hz,
    View.ld_unit_zero (S := S1x256) hz, View.ld_unit_zero (S := S512x256) hz]

/-- Second step: the running block ends at what the first step left plus this step's partial product. -/
theorem scratch_second (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x1 .f32) (harg5 : arg5.IsWhole) (arg6 : Memref sig .tc .vmem S256x1 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S512x256 .f32) (harg9 : arg9.IsWhole) (hc0 : ¬cond0_0 i) (hc1 : cond0_1 i)
    (x0 : Vec F S512x2048 .f32) (x1 : Vec F S256x2048 .i32) (x2 : Vec F S256x1 .f32) (x3 : Vec F S256x1 .f32) (x4 : Vec F S1x256 .f32) (xs0 : Vec F S512x256 .f32) :
    sout0_B_0 c i arg3 harg3 arg4 harg4 arg5 harg5 arg6 harg6 arg7 harg7 arg8 harg8 arg9 harg9 hc0 hc1 x0 x1 x2 x3 x4 xs0 = k0_pay2 x1 x3 x2 x0 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero (S := S512x256) hz]
  simp only [View.readAt_eq_ld, harg3.read_unread, harg4.read_unread, harg5.read_unread, harg6.read_unread, harg7.read_unread, harg9.read_unread,
    View.ld_unit_zero (S := S256x2048) hz, View.ld_unit_zero (S := S256x1) hz, View.ld_unit_zero (S := S512x2048) hz,
    View.ld_unit_zero (S := S1x256) hz, View.ld_unit_zero (S := S512x256) hz]

/-- Second step: the output block is that running block plus the bias row. -/
theorem out_second (c : Dev nD) (i : grid0.Coords) (arg3 : Memref sig .tc .vmem S512x2048 .f32) (harg3 : arg3.IsWhole) (arg4 : Memref sig .tc .vmem S256x2048 .i32) (harg4 : arg4.IsWhole) (arg5 : Memref sig .tc .vmem S256x1 .f32) (harg5 : arg5.IsWhole) (arg6 : Memref sig .tc .vmem S256x1 .f32) (harg6 : arg6.IsWhole) (arg7 : Memref sig .tc .vmem S1x256 .f32) (harg7 : arg7.IsWhole) (arg8 : Memref sig .tc .vmem S512x256 .f32) (harg8 : arg8.IsWhole) (arg9 : Memref sig .tc .vmem S512x256 .f32) (harg9 : arg9.IsWhole) (hc0 : ¬cond0_0 i) (hc1 : cond0_1 i)
    (x0 : Vec F S512x2048 .f32) (x1 : Vec F S256x2048 .i32) (x2 : Vec F S256x1 .f32) (x3 : Vec F S256x1 .f32) (x4 : Vec F S1x256 .f32) (xs0 : Vec F S512x256 .f32) :
    out0_B_5 c i arg3 harg3 arg4 harg4 arg5 harg5 arg6 harg6 arg7 harg7 arg8 harg8 arg9 harg9 hc0 hc1 x0 x1 x2 x3 x4 xs0 = k0_pay3 (k0_pay2 x1 x3 x2 x0 xs0) x4 := by
  unfold out0_B_5
  rw [View.read_writes_eq_canon _ _ _ (cover0_B_5 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero (S := S512x256) hz, View.readCov_unit_zero (S := S512x256) _ hz]
  simp only [View.readAt_eq_ld, harg3.read_unread, harg4.read_unread, harg5.read_unread, harg6.read_unread, harg7.read_unread, harg9.read_unread,
    View.ld_unit_zero (S := S256x2048) hz, View.ld_unit_zero (S := S256x1) hz, View.ld_unit_zero (S := S512x2048) hz,
    View.ld_unit_zero (S := S1x256) hz, View.ld_unit_zero (S := S512x256) hz]

end Cert.KernelIdeal.Pieces

end
-- ==== Proof.Steps.lean ====
/-
  The two steps of one output block, point by point.

  Points come in pairs: an even point `t` is the first contraction half of a block, `t + 1` the second.
  After the even point the running block holds `0 + P(t)`; at the odd point the body adds `P(t + 1)` to what the
  even point left and stores that plus the bias into the output block. `P` is the partial product of the point's
  input, weight, offset and scale blocks.
-/
import proofs.«145541_j47356309405799_1_alg».proof.Proof.Pieces

noncomputable section

open Idealize.ShloMosaic Idealize.ShloMosaic.TcCoe Idealize.SL.Sem

namespace Cert.KernelIdeal.Steps

open Cert.KernelIdeal Cert.KernelIdeal.Gen

variable {F : FTy → Type} [FloatOps F]
variable (m : (ℓ : Loc nD τ sig) → Buf (Elt F) ℓ)

/-- After an even point the running block is the zero block plus that point's partial product. -/
theorem scratch_even (c : Dev nD) (t : Fin cfg0.N) (h0 : t.val % 2 = 0) (h1 : ¬t.val % 2 = 1) :
    (outsAt0 m c t.val t.isLt).2
      = k0_pay2 (iblk m c 1 t) (iblk m c 3 t) (iblk m c 2 t) (iblk m c 0 t) (k0_pay1 (F := F)) := by
  rw [outsAt0_A m c t h0 h1]
  dsimp only
  exact Pieces.scratch_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    ((hcond0_0 t).mpr h0) (fun h => h1 ((hcond0_1 t).mp h)) (iblk m c 0 t) (iblk m c 1 t) (iblk m c 2 t) (iblk m c 3 t) (iblk m c 4 t)

/-- At an odd point the output block is the running block the point before left, plus this point's partial product,
    plus the bias row. -/
theorem out_odd (c : Dev nD) (t : Fin cfg0.N) (h0 : ¬t.val % 2 = 0) (h1 : t.val % 2 = 1) :
    (outsAt0 m c t.val t.isLt).1
      = k0_pay3 (k0_pay2 (iblk m c 1 t) (iblk m c 3 t) (iblk m c 2 t) (iblk m c 0 t)
          (outsAt0 m c (t.val - 1) (Nat.lt_of_le_of_lt (Nat.sub_le _ _) t.isLt)).2) (iblk m c 4 t) := by
  rw [outsAt0_B m c t h0 h1]
  dsimp only
  exact Pieces.out_second (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (fun h => h0 ((hcond0_0 t).mp h)) ((hcond0_1 t).mpr h1) (iblk m c 0 t) (iblk m c 1 t) (iblk m c 2 t) (iblk m c 3 t) (iblk m c 4 t)
    (outsAt0 m c (t.val - 1) (Nat.lt_of_le_of_lt (Nat.sub_le _ _) t.isLt)).2

end Cert.KernelIdeal.Steps

end
-- ==== Proof.Payload.lean ====
/-
  The body's three stored values, one element at a time, over the extended reals.

  * The block it resets the running sum with is zero everywhere.
  * The block it accumulates, at row `r` and column `c`, is the running sum there plus
        `∑ k < 2048, x[r,k] * ((w[c,k] + off[c]) * scale[c])`:
    the weights are converted from integers, shifted by their row's offset, scaled by their row's scale (both
    broadcast along `k`), the two changes of float format are the identity on extended reals, and the matrix product
    into a zero accumulator contracts the second axis of both blocks.
  * The block it finally stores is the running sum plus the bias row broadcast down the 512 rows.
-/
import proofs.«145541_j47356309405799_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The block product's dimension numbers: both operands contract their second axis. -/
abbrev D : DotDims S512x2048 S256x2048 S512x256 := dot_S512x2048_S256x2048_S512x256_1_1_0_0_n_n

/-- One dequantized weight of a 256 × 2048 block. -/
def deqBlk (w : IVec S256x2048 32) (off scale : FVec Ideal S256x1 .f32) (c : Fin 256) (k : Fin 2048) : EReal :=
  (FloatOps.sitofp (F := Ideal) .f32 (w (ix2 c k)) + off (ix2 c (0 : Fin 1))) * scale (ix2 c (0 : Fin 1))

/-- The reset block is zero. -/
theorem zero_apply (j : S512x256.Idx) : k0_pay1 (F := Ideal) j = 0 := by
  unfold k0_pay1
  simp only [shapeCast_self]
  exact Ideal.ofBits_zero_f32

/-- The left operand's row is the output's row … -/
theorem lhs0 (j : S512x256.Idx) (q : D.contr.Idx) : (D.lhsIdx j q 0).val = (j 0).val := by
  unfold DotDims.lhsIdx
  rw [dif_neg (show ¬(0 : Fin S512x2048.rank) ∈ D.lhsBatch by decide),
    dif_pos (show (0 : Fin S512x2048.rank) ∈ D.lhsNonContracting by decide)]
  rfl
/-- … and its column the contraction step. -/
theorem lhs1 (j : S512x256.Idx) (q : D.contr.Idx) : (D.lhsIdx j q 1).val = (q ⟨0, by decide⟩).val :=
  D.lhsIdx_val_of_single rfl j q
/-- The right operand's row is the output's column … -/
theorem rhs0 (j : S512x256.Idx) (q : D.contr.Idx) : (D.rhsIdx j q 0).val = (j 1).val := by
  unfold DotDims.rhsIdx
  rw [dif_neg (show ¬(0 : Fin S256x2048.rank) ∈ D.rhsBatch by decide),
    dif_pos (show (0 : Fin S256x2048.rank) ∈ D.rhsNonContracting by decide)]
  rfl
/-- … and its column the contraction step. -/
theorem rhs1 (j : S512x256.Idx) (q : D.contr.Idx) : (D.rhsIdx j q 1).val = (q ⟨0, by decide⟩).val :=
  D.rhsIdx_val_of_single rfl j q

/-- The block product into a zero accumulator, at `(r, c)`: row `r` of the left block against row `c` of the right. -/
theorem product_apply (X : FVec Ideal S512x2048 .bf16) (W : FVec Ideal S256x2048 .bf16) (r : Fin 512) (c : Fin 256) :
    FloatOps.matmul D none X W (constant (F := Ideal) S512x256 .f32 0x00000000#32) (ix2 r c)
      = ∑ k : Fin 2048, X (ix2 r k) * W (ix2 c k) := by
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx (ix2 r c) ((contrEquiv1 D 2048 rfl rfl).symm k) = ix2 r k := funext fun a => Fin.ext (by
    match a with
    | ⟨0, _⟩ => exact lhs0 _ _
    | ⟨1, _⟩ => exact (lhs1 _ _).trans hk)
  have er : D.rhsIdx (ix2 r c) ((contrEquiv1 D 2048 rfl rfl).symm k) = ix2 c k := funext fun a => Fin.ext (by
    match a with
    | ⟨0, _⟩ => exact rhs0 _ _
    | ⟨1, _⟩ => exact (rhs1 _ _).trans hk)
  rw [el, er]

/-- A per-row column broadcast along `k` reads the row's one entry. -/
theorem column_apply (v : FVec Ideal S256x1 .f32) (c : Fin 256) (k : Fin 2048) :
    broadcastTo S256x2048 v broadcasts_S256x1_S256x2048 (ix2 c k) = v (ix2 c (0 : Fin 1)) :=
  broadcastTo_apply v broadcasts_S256x1_S256x2048 (ix2 c k) (ix2 c (0 : Fin 1)) (fun a => match a with
    | ⟨0, _⟩ => by show c.val = if (256 : Nat) = 1 then 0 else c.val; rw [if_neg (by decide)]
    | ⟨1, _⟩ => by show 0 = if (1 : Nat) = 1 then 0 else k.val; rw [if_pos rfl])

/-- The accumulated block at `(r, c)`: the running sum plus this step's 2048 products. -/
theorem partial_apply (w : IVec S256x2048 32) (off scale : FVec Ideal S256x1 .f32) (x : FVec Ideal S512x2048 .f32)
    (acc : FVec Ideal S512x256 .f32) (r : Fin 512) (c : Fin 256) :
    k0_pay2 (F := Ideal) w off scale x acc (ix2 r c) = acc (ix2 r c) + ∑ k : Fin 2048, x (ix2 r k) * deqBlk w off scale c k := by
  unfold k0_pay2
  simp only [shapeCast_self]
  refine (congrArg (acc (ix2 r c) + ·) (product_apply _ _ r c)).trans ?_
  refine congrArg (acc (ix2 r c) + ·) (Finset.sum_congr rfl fun k _ => ?_)
  refine congrArg (x (ix2 r k) * ·) ?_
  show (FloatOps.sitofp (F := Ideal) .f32 (w (ix2 c k)) + broadcastTo S256x2048 off broadcasts_S256x1_S256x2048 (ix2 c k))
      * broadcastTo S256x2048 scale broadcasts_S256x1_S256x2048 (ix2 c k) = deqBlk w off scale c k
  rw [column_apply, column_apply]
  rfl

/-- The bias row broadcast down the rows reads the column's one entry. -/
theorem row_apply (v : FVec Ideal S1x256 .f32) (r : Fin 512) (c : Fin 256) :
    broadcastTo S512x256 v broadcasts_S1x256_S512x256 (ix2 r c) = v (ix2 (0 : Fin 1) c) :=
  broadcastTo_apply v broadcasts_S1x256_S512x256 (ix2 r c) (ix2 (0 : Fin 1) c) (fun a => match a with
    | ⟨0, _⟩ => by show 0 = if (1 : Nat) = 1 then 0 else r.val; rw [if_pos rfl]
    | ⟨1, _⟩ => by show c.val = if (256 : Nat) = 1 then 0 else c.val; rw [if_neg (by decide)])

/-- The stored output block at `(r, c)`: the running sum plus the bias of column `c`. -/
theorem biased_apply (acc : FVec Ideal S512x256 .f32) (b : FVec Ideal S1x256 .f32) (r : Fin 512) (c : Fin 256) :
    k0_pay3 (F := Ideal) acc b (ix2 r c) = acc (ix2 r c) + b (ix2 (0 : Fin 1) c) := by
  unfold k0_pay3
  simp only [shapeCast_self]
  exact congrArg (acc (ix2 r c) + ·) (row_apply b r c)

end Cert.KernelIdeal.Payload

end
-- ==== Proof.Blocks.lean ====
/-
  Where each block sits in its array.

  The grid has 8 × 43 × 2 points, visited in row-major order: point `t` is row block `t / 86`, column block
  `t / 2 % 43`, contraction half `t % 2`. At point `t`
    * the input block holds rows `512 (t / 86) + r`, columns `2048 (t % 2) + k` of the flattened input;
    * the weight block holds rows `256 (t / 2 % 43) + c`, columns `2048 (t % 2) + k` of the weights;
    * the scale and offset blocks hold rows `256 (t / 2 % 43) + c` of their one-column arrays;
    * the bias block holds columns `256 (t / 2 % 43) + c` of the bias row;
    * the output block is rows `512 (t / 86) + r`, columns `256 (t / 2 % 43) + c` of the flattened result.
  Before the region the input's two leading axes are flattened and the bias is viewed as one row.
-/
import proofs.«145541_j47356309405799_1_alg».proof.Proof.Gen.KernelIdeal.Frame
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The printed index maps in closed form, decided over the grid's 688 points. -/
theorem idx_facts : ∀ t : Fin cfg0.N,
    win0_0.index t (0 : Fin 2) = t.val / 86 ∧ win0_0.index t (1 : Fin 2) = t.val % 2
    ∧ win0_1.index t (0 : Fin 2) = t.val / 2 % 43 ∧ win0_1.index t (1 : Fin 2) = t.val % 2
    ∧ win0_2.index t (0 : Fin 2) = t.val / 2 % 43 ∧ win0_2.index t (1 : Fin 2) = 0
    ∧ win0_3.index t (0 : Fin 2) = t.val / 2 % 43 ∧ win0_3.index t (1 : Fin 2) = 0
    ∧ win0_4.index t (0 : Fin 2) = 0 ∧ win0_4.index t (1 : Fin 2) = t.val / 2 % 43
    ∧ win0_5.index t (0 : Fin 2) = t.val / 86 ∧ win0_5.index t (1 : Fin 2) = t.val / 2 % 43 :=
  (by decide +kernel : ∀ t : Fin grid0.N, _)

/-- The region finds the input with its two leading axes flattened. -/
theorem V_input (c : Dev nD) :
    (V m c main_v0 : S4096x4096.Idx → F .f32)
      = shapeCast S4096x4096 (m ((c : Thread nD τ).loc main_arg0)) shapeCasts_S2x2048x4096_S4096x4096 := by
  show StableHlo.after hostOps0 (fun b => m (c, b)) (Proc.devRef .tc main_v0) = _
  after_results
  rfl

/-- The region finds the bias as one row. -/
theorem V_bias (c : Dev nD) :
    (V m c main_v1 : S1x11008.Idx → F .f32)
      = shapeCast S1x11008 (m ((c : Thread nD τ).loc main_arg4)) shapeCasts_S11008_S1x11008 := by
  show StableHlo.after hostOps0 (fun b => m (c, b)) (Proc.devRef .tc main_v1) = _
  after_results
  rfl

/-- The input block at point `t`, read at `(r, k)`. -/
theorem input_block (c : Dev nD) (t : Fin cfg0.N) (r : Fin 512) (k : Fin 2048) (R K : Fin 4096)
    (hR : R.val = 512 * (t.val / 86) + r.val) (hK : K.val = 2048 * (t.val % 2) + k.val) :
    (iblk m c 0 t : S512x2048.Idx → F .f32) (ix2 r k) = V m c main_v0 (ix2 R K) := by
  obtain ⟨e00, e01, -⟩ := idx_facts t
  show V m c main_v0 (((cfg0.win 0).blk t).view.emb (ix2 r k)) = V m c main_v0 (ix2 R K)
  refine congrArg (V m c main_v0) (funext fun a => Fin.ext ?_)
  match a with
  | ⟨0, _⟩ => show win0_0.index t (0 : Fin 2) * 512 + 1 * r.val = R.val; omega
  | ⟨1, _⟩ => show win0_0.index t (1 : Fin 2) * 2048 + 1 * k.val = K.val; omega

/-- The weight block at point `t`, read at `(c', k)`. -/
theorem weight_block (c : Dev nD) (t : Fin cfg0.N) (c' : Fin 256) (k : Fin 2048) (N : Fin 11008) (K : Fin 4096)
    (hN : N.val = 256 * (t.val / 2 % 43) + c'.val) (hK : K.val = 2048 * (t.val % 2) + k.val) :
    (iblk m c 1 t : S256x2048.Idx → BitVec 32) (ix2 c' k) = V m c main_arg1 (ix2 N K) := by
  obtain ⟨-, -, e10, e11, -⟩ := idx_facts t
  show V m c main_arg1 (((cfg0.win 1).blk t).view.emb (ix2 c' k)) = V m c main_arg1 (ix2 N K)
  refine congrArg (V m c main_arg1) (funext fun a => Fin.ext ?_)
  match a with
  | ⟨0, _⟩ => show win0_1.index t (0 : Fin 2) * 256 + 1 * c'.val = N.val; omega
  | ⟨1, _⟩ => show win0_1.index t (1 : Fin 2) * 2048 + 1 * k.val = K.val; omega

/-- The scale block at point `t`, read at row `c'`. -/
theorem scale_block (c : Dev nD) (t : Fin cfg0.N) (c' : Fin 256) (N : Fin 11008)
    (hN : N.val = 256 * (t.val / 2 % 43) + c'.val) :
    (iblk m c 2 t : S256x1.Idx → F .f32) (ix2 c' (0 : Fin 1)) = V m c main_arg2 (ix2 N (0 : Fin 1)) := by
  obtain ⟨-, -, -, -, e20, e21, -⟩ := idx_facts t
  show V m c main_arg2 (((cfg0.win 2).blk t).view.emb (ix2 c' (0 : Fin 1))) = V m c main_arg2 (ix2 N (0 : Fin 1))
  refine congrArg (V m c main_arg2) (funext fun a => Fin.ext ?_)
  match a with
  | ⟨0, _⟩ => show win0_2.index t (0 : Fin 2) * 256 + 1 * c'.val = N.val; omega
  | ⟨1, _⟩ => show win0_2.index t (1 : Fin 2) * 1 + 1 * 0 = 0; omega

/-- The offset block at point `t`, read at row `c'`. -/
theorem offset_block (c : Dev nD) (t : Fin cfg0.N) (c' : Fin 256) (N : Fin 11008)
    (hN : N.val = 256 * (t.val / 2 % 43) + c'.val) :
    (iblk m c 3 t : S256x1.Idx → F .f32) (ix2 c' (0 : Fin 1)) = V m c main_arg3 (ix2 N (0 : Fin 1)) := by
  obtain ⟨-, -, -, -, -, -, e30, e31, -⟩ := idx_facts t
  show V m c main_arg3 (((cfg0.win 3).blk t).view.emb (ix2 c' (0 : Fin 1))) = V m c main_arg3 (ix2 N (0 : Fin 1))
  refine congrArg (V m c main_arg3) (funext fun a => Fin.ext ?_)
  match a with
  | ⟨0, _⟩ => show win0_3.index t (0 : Fin 2) * 256 + 1 * c'.val = N.val; omega
  | ⟨1, _⟩ => show win0_3.index t (1 : Fin 2) * 1 + 1 * 0 = 0; omega

/-- The bias block at point `t`, read at column `c'`. -/
theorem bias_block (c : Dev nD) (t : Fin cfg0.N) (c' : Fin 256) (N : Fin 11008)
    (hN : N.val = 256 * (t.val / 2 % 43) + c'.val) :
    (iblk m c 4 t : S1x256.Idx → F .f32) (ix2 (0 : Fin 1) c') = V m c main_v1 (ix2 (0 : Fin 1) N) := by
  obtain ⟨-, -, -, -, -, -, -, -, e40, e41, -⟩ := idx_facts t
  show V m c main_v1 (((cfg0.win 4).blk t).view.emb (ix2 (0 : Fin 1) c')) = V m c main_v1 (ix2 (0 : Fin 1) N)
  refine congrArg (V m c main_v1) (funext fun a => Fin.ext ?_)
  match a with
  | ⟨0, _⟩ => show win0_4.index t (0 : Fin 2) * 1 + 1 * 0 = 0; omega
  | ⟨1, _⟩ => show win0_4.index t (1 : Fin 2) * 256 + 1 * c'.val = N.val; omega

end Cert.KernelIdeal.Blocks

end
-- ==== Proof.Result.lean ====
/-
  What the kernel's result array holds after the run.

  Fix an output block: row block `i`, column block `j`. Its two points are `t - 1` (even) and `t` (odd). The value
  stored at the odd point, at `(r, c)` of the block, is
      `((0 + ∑ k < 2048, X[R, k] * W[N, k]) + ∑ k < 2048, X[R, 2048 + k] * W[N, 2048 + k]) + B[0, N]`
  with `R = 512 i + r`, `N = 256 j + c`: the two halves of the contraction, in order, onto zero. That is the matrix
  form of the specification at `(R, N)`. Every entry of the 4096 × 11008 result lies in exactly such a block, written
  back at its odd point, so the array ends at the matrix form; un-flattening its rows gives the result.
-/
import proofs.«145541_j47356309405799_1_alg».proof.Proof.Steps
import proofs.«145541_j47356309405799_1_alg».proof.Proof.Payload
import proofs.«145541_j47356309405799_1_alg».proof.Proof.Blocks
import proofs.«145541_j47356309405799_1_alg».proof.Proof.Spec

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.Spec

variable (m : (ℓ : Loc nD τ sig) → Buf (Elt Ideal) ℓ) (ρ : Dev nD → PrngReg)

/-- The arrays as the region finds them, typed as arrays of extended reals and of words: the flattened input, the
    integer weights, the per-row scale and offset, the bias row. -/
abbrev Xv (c : Dev nD) : FVec Ideal S4096x4096 .f32 := V m c main_v0
abbrev Wv (c : Dev nD) : IVec S11008x4096 32 := V m c main_arg1
abbrev Sv (c : Dev nD) : FVec Ideal S11008x1 .f32 := V m c main_arg2
abbrev Ov (c : Dev nD) : FVec Ideal S11008x1 .f32 := V m c main_arg3
abbrev Bv (c : Dev nD) : FVec Ideal S1x11008 .f32 := V m c main_v1

/-- The matrix form of the specification, of those arrays. -/
def Y (c : Dev nD) : FVec Ideal S4096x11008 .f32 :=
  G2 (Xv m c) (Wv m c) (Sv m c) (Ov m c) (Bv m c)

/-- The output block of an odd point at `(r, c')` is the matrix form at the entry it covers. -/
theorem out_apply (c : Dev nD) (t : Fin cfg0.N) (h1 : t.val % 2 = 1) (r : Fin 512) (c' : Fin 256)
    (R : Fin 4096) (N : Fin 11008) (hR : R.val = 512 * (t.val / 86) + r.val)
    (hN : N.val = 256 * (t.val / 2 % 43) + c'.val) :
    (outsAt0 m c t.val t.isLt).1 (ix2 r c') = Y m c (ix2 R N) := by
  have hT : t.val < 688 := lt_of_lt_of_eq t.isLt (show cfg0.N = 688 from N_0)
  have h0 : ¬t.val % 2 = 0 := by omega
  obtain ⟨t', ht'⟩ : ∃ t' : Fin cfg0.N, t'.val = t.val - 1 :=
    ⟨⟨t.val - 1, Nat.lt_of_le_of_lt (Nat.sub_le _ _) t.isLt⟩, rfl⟩
  have h0' : t'.val % 2 = 0 := by omega
  have h1' : ¬t'.val % 2 = 1 := by omega
  have hs : (outsAt0 m c (t.val - 1) (Nat.lt_of_le_of_lt (Nat.sub_le _ _) t.isLt)).2
      = k0_pay2 (iblk m c 1 t') (iblk m c 3 t') (iblk m c 2 t') (iblk m c 0 t') (k0_pay1 (F := Ideal)) := by
    have e := Steps.scratch_even m c t' h0' h1'
    have : (⟨t.val - 1, Nat.lt_of_le_of_lt (Nat.sub_le _ _) t.isLt⟩ : Fin cfg0.N) = t' := Fin.ext ht'.symm
    subst this
    exact e
  rw [Steps.out_odd m c t h0 h1, hs]
  refine (Payload.biased_apply _ (iblk m c 4 t) r c').trans ?_
  refine (congrArg (· + (iblk m c 4 t : S1x256.Idx → EReal) (ix2 (0 : Fin 1) c'))
    (Payload.partial_apply (iblk m c 1 t) (iblk m c 3 t) (iblk m c 2 t) (iblk m c 0 t) _ r c')).trans ?_
  rw [Payload.partial_apply (iblk m c 1 t') (iblk m c 3 t') (iblk m c 2 t') (iblk m c 0 t') (k0_pay1 (F := Ideal)) r c',
    Payload.zero_apply, Blocks.bias_block m c t c' N hN]
  unfold Y G2
  show _ = (∑ K : Fin 4096, Xv m c (ix2 R K) * deq (Wv m c) (Sv m c) (Ov m c) N K) + Bv m c (ix2 (0 : Fin 1) N)
  rw [← sum_halves (fun K : Fin 4096 => Xv m c (ix2 R K) * deq (Wv m c) (Sv m c) (Ov m c) N K)]
  refine congrArg (· + Bv m c (ix2 (0 : Fin 1) N)) ?_
  refine congrArg₂ (· + ·) (congrArg (0 + ·) (Finset.sum_congr rfl fun k _ => ?_)) (Finset.sum_congr rfl fun k _ => ?_)
  · have hk : k.val < 2048 := k.isLt
    rw [Blocks.input_block m c t' r k R ⟨k.val, by omega⟩ (by omega) (by show k.val = _; omega)]
    unfold Payload.deqBlk deq
    rw [Blocks.weight_block m c t' c' k N ⟨k.val, by omega⟩ (by omega) (by show k.val = _; omega),
      Blocks.offset_block m c t' c' N (by omega), Blocks.scale_block m c t' c' N (by omega)]
  · have hk : k.val < 2048 := k.isLt
    rw [Blocks.input_block m c t r k R ⟨2048 + k.val, by omega⟩ hR (by show 2048 + k.val = _; omega)]
    unfold Payload.deqBlk deq
    rw [Blocks.weight_block m c t c' k N ⟨2048 + k.val, by omega⟩ hN (by show 2048 + k.val = _; omega),
      Blocks.offset_block m c t c' N hN, Blocks.scale_block m c t c' N hN]

/-- What a point that writes the output back writes: its block of the matrix form. -/
theorem flushed_eq (c : Dev nD) (t : Fin cfg0.N) (hf : (cfg0.win 5).flush t = true) :
    (dats m 0 c).flushed 5 t = ((cfg0.win 5).blk t).view.read (Elt Ideal) (Y m c) := by
  have h1 : t.val % 2 = 1 := (flush0_5 t).mp hf
  have hT : t.val < 688 := lt_of_lt_of_eq t.isLt (show cfg0.N = 688 from N_0)
  obtain ⟨-, -, -, -, -, -, -, -, -, -, e50, e51⟩ := Blocks.idx_facts t
  show (cfg0.win 5).cut (grid0.coords t) ((dats m 0 c).after 5 t) = _
  rw [after0_5]
  refine funext fun (y : S512x256.Idx) => ?_
  obtain ⟨r, c', rfl⟩ : ∃ (r : Fin 512) (c' : Fin 256), y = ix2 r c' := ⟨y 0, y 1, eq_ix2 y⟩
  have hr : r.val < 512 := r.isLt
  have hc : c'.val < 256 := c'.isLt
  have he : ((cfg0.win 5).blk t).view.emb (ix2 r c')
      = ix2 (⟨512 * (t.val / 86) + r.val, by omega⟩ : Fin 4096) (⟨256 * (t.val / 2 % 43) + c'.val, by omega⟩ : Fin 11008) :=
    funext fun a => Fin.ext (by
      match a with
      | ⟨0, _⟩ => show win0_5.index t (0 : Fin 2) * 512 + 1 * r.val = 512 * (t.val / 86) + r.val; omega
      | ⟨1, _⟩ => show win0_5.index t (1 : Fin 2) * 256 + 1 * c'.val = 256 * (t.val / 2 % 43) + c'.val; omega)
  show (outsAt0 m c t.val t.isLt).1 (ix2 r c') = Y m c (((cfg0.win 5).blk t).view.emb (ix2 r c'))
  rw [he]
  exact out_apply m c t h1 r c' _ _ rfl rfl

/-- An entry of the result is in a point's output block iff each coordinate is in the block's range. -/
theorem mem_blk (t : Fin cfg0.N) (i : S4096x11008.Idx) :
    i ∈ ((cfg0.win 5).blk t).view.set ↔ ∀ a : Fin 2, win0_5.index t a * S512x256.size a ≤ (i a).val
      ∧ (i a).val < win0_5.index t a * S512x256.size a + S512x256.size a := by
  show i ∈ ((View.whole main_v2).slice (win0_5.rect t)).set ↔ _
  rw [View.set_slice_whole, Rect.mem_set_unit]
  exact Iff.rfl

/-- Every entry of the result lies in the block written back at the odd point of its row and column blocks. -/
theorem cover (i : S4096x11008.Idx) :
    ∃ t : Fin cfg0.N, (cfg0.win 5).flush t = true ∧ i ∈ ((cfg0.win 5).blk t).view.set := by
  have hi0 : (i 0).val < 4096 := (i 0).isLt
  have hi1 : (i 1).val < 11008 := (i 1).isLt
  have hN : cfg0.N = 688 := N_0
  obtain ⟨tv, htv⟩ : ∃ tv : Nat, tv = ((i 0).val / 512 * 43 + (i 1).val / 256) * 2 + 1 := ⟨_, rfl⟩
  have hlt : tv < cfg0.N := by rw [hN]; omega
  obtain ⟨-, -, -, -, -, -, -, -, -, -, e50, e51⟩ := Blocks.idx_facts ⟨tv, hlt⟩
  refine ⟨⟨tv, hlt⟩, (flush0_5 _).mpr (by show tv % 2 = 1; omega), ?_⟩
  rw [mem_blk]
  intro a
  match a with
  | ⟨0, _⟩ =>
    show win0_5.index ⟨tv, hlt⟩ (0 : Fin 2) * 512 ≤ (i 0).val ∧ (i 0).val < win0_5.index ⟨tv, hlt⟩ (0 : Fin 2) * 512 + 512
    rw [e50]; show tv / 86 * 512 ≤ (i 0).val ∧ (i 0).val < tv / 86 * 512 + 512; omega
  | ⟨1, _⟩ =>
    show win0_5.index ⟨tv, hlt⟩ (1 : Fin 2) * 256 ≤ (i 1).val ∧ (i 1).val < win0_5.index ⟨tv, hlt⟩ (1 : Fin 2) * 256 + 256
    rw [e51]; show tv / 2 % 43 * 256 ≤ (i 1).val ∧ (i 1).val < tv / 2 % 43 * 256 + 256; omega

/-- The flattened result array after the run is the matrix form. -/
theorem final (c : Dev nD) : (dats m 0 c).arrAt 5 cfg0.N = Y m c :=
  (dats m 0 c).arrAt_eq_of_cover 5 (Y m c) (fun t hf => flushed_eq m c t hf) cover

/-- After the region the flattened result's rows are un-flattened: the program's result is the specification of the
    argument arrays. -/
theorem result_eq (c : Dev nD) :
    Pipeline.afterTail₀ cfgs (dats m) 0 (V0 m) [hostOps1] c main_v3
      = G3 (m ((c : Thread nD τ).loc main_arg0)) (m ((c : Thread nD τ).loc main_arg1)) (m ((c : Thread nD τ).loc main_arg2))
          (m ((c : Thread nD τ).loc main_arg3)) (m ((c : Thread nD τ).loc main_arg4)) := by
  have e : Pipeline.afterTail₀ cfgs (dats m) 0 (V0 m) [hostOps1] c main_v3
      = shapeCast S2x2048x11008 ((dats m 0 c).arrAt 5 cfg0.N) shapeCasts_S4096x11008_S2x2048x11008 := by
    unfold Pipeline.afterTail₀
    show StableHlo.after hostOps1 _ (Proc.devRef .tc main_v3) = _
    after_results
    exact funext fun i => congrArg (fun A => shapeCast S2x2048x11008 A shapeCasts_S4096x11008_S2x2048x11008 i)
      (Pipeline.withArrays_arr spec0 launch0.win.arr_inj c _ _ 5)
  rw [e, final m c]
  unfold Y
  have hX : Xv m c = shapeCast S4096x4096 (m ((c : Thread nD τ).loc main_arg0)) shapeCasts_S2x2048x4096_S4096x4096 :=
    Blocks.V_input m c
  have hB : Bv m c = shapeCast S1x11008 (m ((c : Thread nD τ).loc main_arg4)) shapeCasts_S11008_S1x11008 :=
    Blocks.V_bias m c
  have hW : Wv m c = (m ((c : Thread nD τ).loc main_arg1)) := V_main_arg1 m c
  have hS : Sv m c = (m ((c : Thread nD τ).loc main_arg2)) := V_main_arg2 m c
  have hO : Ov m c = (m ((c : Thread nD τ).loc main_arg3)) := V_main_arg3 m c
  rw [hX, hB, hW, hS, hO]
  exact G3_of_G2 _ _ _ _ _ _ _ _

/-- The kernel's run, read: every weakly fair execution ends with the result at the specification of the argument
    arrays, and the arguments as they were. -/
theorem run : θ_run defs (onTc (τ := τ) (main (F := Ideal))) ⟨m, fun _ => 0, ρ⟩ fun r => ∀ c : Dev nD,
      r.2.mem ((c.tc : Thread nD τ).loc main_v3)
        = G3 (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Result

end
-- ==== Proof.lean ====
/-
  A linear layer whose weights are stored as small integers.

  The weight matrix is kept as integers `w[n,k]` (11008 × 4096) with one offset and one scale per output row; its real
  value is `W[n,k] = (w[n,k] + off[n]) * scale[n]`. Both programs compute, for an input `x` (2 × 2048 × 4096) and a
  bias (11008),
      `y[b,s,n] = (∑ k < 4096, x[b,s,k] * W[n,k]) + bias[n]`.

  The reference does it in one contraction. The kernel flattens the input to 4096 rows, walks a grid of 8 row blocks
  (512 rows) × 43 column blocks (256 columns) × 2 halves of `k` (2048 each), keeps a running 512 × 256 block across
  the two halves — zeroed at the first, accumulated at both — and at the second half stores the running block plus the
  bias into the output block; afterwards the 4096 result rows are un-flattened.

  Over the extended reals the two agree entry by entry: a change of float format is the identity, the block product
  into a zero accumulator is a plain sum, and `(0 + ∑ lower half) + ∑ upper half` is the whole sum because addition is
  associative and commutative with `0` neutral. No cancellation or distributivity is used, so the precondition that
  the inputs are finite is never opened.

  The pieces: `Spec` (the function both compute, the halves law, the reshapes), `RefSide` (the reference is the
  specification), `Pieces` and `Steps` (what one run of the body leaves, point by point), `Payload` (the stored
  blocks one element at a time), `Blocks` (where each block sits in its array), `Result` (the kernel's result array
  is the specification).
-/
import proofs.«145541_j47356309405799_1_alg».proof.Defs
import proofs.«145541_j47356309405799_1_alg».proof.Proof.Gen.Kernel
import proofs.«145541_j47356309405799_1_alg».proof.Proof.Gen.Kernel.Frame
import proofs.«145541_j47356309405799_1_alg».proof.Proof.Gen.KernelIdeal
import proofs.«145541_j47356309405799_1_alg».proof.Proof.Gen.KernelIdeal.Frame
import proofs.«145541_j47356309405799_1_alg».proof.Proof.Gen.ReferenceIdeal
import proofs.«145541_j47356309405799_1_alg».proof.Proof.Gen.ReferenceIdeal.Run
import proofs.«145541_j47356309405799_1_alg».proof.Proof.Gen.ReferenceIdeal.Read
import proofs.«145541_j47356309405799_1_alg».proof.Proof.Gen.Pre_finite_inputs
import proofs.«145541_j47356309405799_1_alg».proof.Proof.RefSide
import proofs.«145541_j47356309405799_1_alg».proof.Proof.Result
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten to read the kernel over the extended reals. -/
theorem preserves : Cert.preserves_Kernel_KernelIdeal := trivial

/-- From memories agreeing on the arguments, both programs end with the specification of those arguments. -/
theorem algebraic : Cert.algebraic_KernelIdeal_ReferenceIdeal := by
  intro m ρ m' ρ' _ hagree
  refine ⟨fun c => Cert.Spec.G3 (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.RefSide.ref_is_spec, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
